-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S1x2048 : Shape := ⟨2, ![1, 2048]⟩
abbrev S2047x2048 : Shape := ⟨2, ![2047, 2048]⟩
abbrev S2048x1 : Shape := ⟨2, ![2048, 1]⟩
abbrev S2048x2047 : Shape := ⟨2, ![2048, 2047]⟩
abbrev S512x2048 : Shape := ⟨2, ![512, 2048]⟩

abbrev nBuf : Space → Nat
  | .hbm => 31
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2047x2048, .f32⟩
  | .hbm, ⟨22, _⟩ => ⟨S2048x2048, .f32⟩
  | .hbm, ⟨23, _⟩ => ⟨S2048x2048, .f32⟩
  | .hbm, ⟨24, _⟩ => ⟨S2048x1, .f32⟩
  | .hbm, ⟨25, _⟩ => ⟨S2048x2047, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_v0 : Ref sig .tc := ⟨.hbm, 3, rfl⟩
abbrev main_call0_v1 : Ref sig .tc := ⟨.hbm, 4, rfl⟩
abbrev main_call0_call1_v0 : Ref sig .tc := ⟨.hbm, 5, rfl⟩
abbrev main_call0_v2 : Ref sig .tc := ⟨.hbm, 6, rfl⟩
abbrev main_call0_v3 : Ref sig .tc := ⟨.hbm, 7, rfl⟩
abbrev main_call0_call2_v0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_call3_v0 : Ref sig .tc := ⟨.hbm, 20, rfl⟩
abbrev main_call0_call3_v1 : Ref sig .tc := ⟨.hbm, 21, rfl⟩
abbrev main_call0_v15 : Ref sig .tc := ⟨.hbm, 22, rfl⟩
abbrev main_call0_v16 : Ref sig .tc := ⟨.hbm, 23, rfl⟩
abbrev main_call0_call4_v0 : Ref sig .tc := ⟨.hbm, 24, rfl⟩
abbrev main_call0_call4_v1 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2048x2048_S2048x2048_1_0 : S2048x2048.Transposes [1, 0] S2048x2048
  slices_S2048x2048_S1x2048_2047_0 : S2048x2048.Slices ![2047, 0] S1x2048
  slices_S2048x2048_S2047x2048_0_0 : S2048x2048.Slices ![0, 0] S2047x2048
  concatenates_S1x2048_S2047x2048_S2048x2048_d0 : Shape.Concatenates [S1x2048, S2047x2048] S2048x2048 0
  slices_S2048x2048_S2048x1_0_2047 : S2048x2048.Slices ![0, 2047] S2048x1
  slices_S2048x2048_S2048x2047_0_0 : S2048x2048.Slices ![0, 0] S2048x2047
  concatenates_S2048x1_S2048x2047_S2048x2048_d1 : Shape.Concatenates [S2048x1, S2048x2047] S2048x2048 1
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S1x2048 : Shape := ⟨2, ![1, 2048]⟩
abbrev S2047x2048 : Shape := ⟨2, ![2047, 2048]⟩
abbrev S2048x1 : Shape := ⟨2, ![2048, 1]⟩
abbrev S2048x2047 : Shape := ⟨2, ![2048, 2047]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S16384x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2047x2048, .f32⟩
  | .hbm, ⟨23, _⟩ => ⟨S2048x2048, .f32⟩
  | .hbm, ⟨24, _⟩ => ⟨S2048x2048, .f32⟩
  | .hbm, ⟨25, _⟩ => ⟨S2048x1, .f32⟩
  | .hbm, ⟨26, _⟩ => ⟨S2048x2047, .f32⟩
  | .hbm, ⟨27, _⟩ => ⟨S2048x2048, .f32⟩
  | .hbm, ⟨28, _⟩ => ⟨S2048x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_v2 : Ref sig .tc := ⟨.hbm, 5, rfl⟩
abbrev main_call1_v0 : Ref sig .tc := ⟨.hbm, 6, rfl⟩
abbrev main_v3 : Ref sig .tc := ⟨.hbm, 7, rfl⟩
abbrev main_v4 : Ref sig .tc := ⟨.hbm, 8, rfl⟩
abbrev main_call2_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call3_v0 : Ref sig .tc := ⟨.hbm, 21, rfl⟩
abbrev main_call3_v1 : Ref sig .tc := ⟨.hbm, 22, rfl⟩
abbrev main_v16 : Ref sig .tc := ⟨.hbm, 23, rfl⟩
abbrev main_v17 : Ref sig .tc := ⟨.hbm, 24, rfl⟩
abbrev main_call4_v0 : Ref sig .tc := ⟨.hbm, 25, rfl⟩
abbrev main_call4_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S2048x2048_S2048x2048_1_0 : S2048x2048.Transposes [1, 0] S2048x2048
  slices_S2048x2048_S1x2048_2047_0 : S2048x2048.Slices ![2047, 0] S1x2048
  slices_S2048x2048_S2047x2048_0_0 : S2048x2048.Slices ![0, 0] S2047x2048
  concatenates_S1x2048_S2047x2048_S2048x2048_d0 : Shape.Concatenates [S1x2048, S2047x2048] S2048x2048 0
  slices_S2048x2048_S2048x1_0_2047 : S2048x2048.Slices ![0, 2047] S2048x1
  slices_S2048x2048_S2048x2047_0_0 : S2048x2048.Slices ![0, 0] S2048x2047
  concatenates_S2048x1_S2048x2047_S2048x2048_d1 : Shape.Concatenates [S2048x1, S2048x2047] S2048x2048 1
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Weights.lean ====
/-
  The two weight matrices of the layer, as whole-array functions of the 2048 x 2048 parameter W, for any float
  instance: the transpose W^T, and the sum of nine rearrangements of W — the three quarter-turn rotations, the
  transpose, the two flips, the transpose flipped on both axes, and the two cyclic shifts by one (rows, columns).
  Every term is a re-indexing of W; the sum is taken left to right in this order.
-/
import Idealize.ShloMosaic.PureOps
import Idealize.ShloMosaic.PureOps.Ideal

noncomputable section

namespace Cert.Layer

open Idealize.ShloMosaic

/-- The activations: 16384 rows of 2048 features. -/
abbrev SX : Shape := ⟨2, ![16384, 2048]⟩
/-- The square weight matrix. -/
abbrev SW : Shape := ⟨2, ![2048, 2048]⟩
abbrev SRow : Shape := ⟨2, ![1, 2048]⟩
abbrev SRows : Shape := ⟨2, ![2047, 2048]⟩
abbrev SCol : Shape := ⟨2, ![2048, 1]⟩
abbrev SCols : Shape := ⟨2, ![2048, 2047]⟩

theorem swapAxes : SW.Transposes [1, 0] SW := by decide
theorem lastRow : SW.Slices ![2047, 0] SRow := by decide
theorem firstRows : SW.Slices ![0, 0] SRows := by decide
theorem joinRows : Shape.Concatenates [SRow, SRows] SW 0 := by decide
theorem lastCol : SW.Slices ![0, 2047] SCol := by decide
theorem firstCols : SW.Slices ![0, 0] SCols := by decide
theorem joinCols : Shape.Concatenates [SCol, SCols] SW 1 := by decide

variable {F : FTy → Type} [FloatOps F]

/-- W^T. -/
def wT (W : FVec F SW .f32) : FVec F SW .f32 := transpose SW [1, 0] W swapAxes

/-- W with its rows shifted down by one, cyclically: the last row first, then rows 0 … 2046. -/
def shiftRows (W : FVec F SW .f32) : FVec F SW .f32 :=
  concatenate SW 0 [⟨SRow, extractStridedSlice SRow ![2047, 0] W lastRow⟩, ⟨SRows, extractStridedSlice SRows ![0, 0] W firstRows⟩] joinRows

/-- W with its columns shifted right by one, cyclically. -/
def shiftCols (W : FVec F SW .f32) : FVec F SW .f32 :=
  concatenate SW 1 [⟨SCol, extractStridedSlice SCol ![0, 2047] W lastCol⟩, ⟨SCols, extractStridedSlice SCols ![0, 0] W firstCols⟩] joinCols

/-- The sum of the nine rearrangements of W, added left to right. -/
def wPerm (W : FVec F SW .f32) : FVec F SW .f32 :=
  addf (addf (addf (addf (addf (addf (addf (addf
    (transpose SW [1, 0] (Host.reverse [1] W) swapAxes)
    (Host.reverse [1] (Host.reverse [0] W)))
    (Host.reverse [1] (transpose SW [1, 0] W swapAxes)))
    (transpose SW [1, 0] W swapAxes))
    (Host.reverse [0] W))
    (Host.reverse [1] W))
    (Host.reverse [0, 1] (transpose SW [1, 0] W swapAxes)))
    (shiftRows W))
    (shiftCols W)

end Cert.Layer

end
-- ==== Proof.RealEntries.lean ====
/-
  Arrays of extended reals all of whose entries are real numbers. Re-indexing an array (a transpose, a reversal, a
  slice, a concatenation) keeps the property, since every entry of the result is an entry of an operand; so does an
  entrywise sum. On such arrays multiplication distributes over addition inside a finite sum — which fails on the
  extended reals in general (−1 · (+∞ + −∞) against −1 · +∞ + −1 · −∞).
-/
import Idealize.ShloMosaic.PureOps
import Idealize.ShloMosaic.PureOps.Ideal
import Idealize.ShloMosaic.Lib.ValueIdx

noncomputable section

namespace Cert.Layer

open Idealize.ShloMosaic

/-- Every entry is a real number: neither infinity occurs. -/
def AllReal {s : Shape} (v : s.Idx → EReal) : Prop := ∀ i, ∃ r : ℝ, v i = (r : EReal)

theorem AllReal.transpose {s t : Shape} (perm : List (Fin s.rank)) (v : s.Idx → EReal) (h : s.Transposes perm t)
    (hv : AllReal v) : AllReal (transpose t perm v h) := fun j => by
  unfold Idealize.ShloMosaic.transpose; exact hv _

theorem AllReal.reverse {s : Shape} (axes : List (Fin s.rank)) (v : s.Idx → EReal) (hv : AllReal v) :
    AllReal (Host.reverse axes v) := fun j => by
  unfold Host.reverse; exact hv _

theorem AllReal.slice {s t : Shape} (off : Fin s.rank → Nat) (v : s.Idx → EReal) (h : s.Slices off t) (hv : AllReal v) :
    AllReal (extractStridedSlice t off v h) := fun j => by
  unfold extractStridedSlice; exact hv _

/-- An entry of a concatenation is an entry of one of the pieces. -/
theorem AllReal.concat {t : Shape} (a : Fin t.rank) (xs : List ((s : Shape) × (s.Idx → EReal)))
    (h : Shape.Concatenates (xs.map (·.1)) t a) (hxs : ∀ p ∈ xs, AllReal p.2) : AllReal (concatenate t a xs h) := fun j => by
  unfold concatenate
  exact hxs _ (List.getElem_mem _) _

theorem AllReal.add {s : Shape} {φ : FTy} (a b : FVec Ideal s φ) (ha : AllReal a) (hb : AllReal b) : AllReal (addf a b) := fun i => by
  obtain ⟨r, hr⟩ := ha i
  obtain ⟨q, hq⟩ := hb i
  exact ⟨r + q, by rw [ValueIdx.addf_apply, hr, hq, EReal.coe_add]⟩

/-- Over real-valued families, the sum of  f·(g + h)  is the sum of  f·g  plus the sum of  f·h. -/
theorem sum_mul_add {K : Type} [Fintype K] (f g h : K → EReal)
    (hf : ∀ k, ∃ r : ℝ, f k = (r : EReal)) (hg : ∀ k, ∃ r : ℝ, g k = (r : EReal)) (hh : ∀ k, ∃ r : ℝ, h k = (r : EReal)) :
    ∑ k, f k * (g k + h k) = ∑ k, f k * g k + ∑ k, f k * h k := by
  rw [← Finset.sum_add_distrib]
  refine Finset.sum_congr rfl fun k _ => ?_
  obtain ⟨r, hr⟩ := hf k
  obtain ⟨p, hp⟩ := hg k
  obtain ⟨q, hq⟩ := hh k
  rw [hr, hp, hq, ← EReal.coe_add, ← EReal.coe_mul, ← EReal.coe_mul, ← EReal.coe_mul, ← EReal.coe_add, mul_add]

end Cert.Layer

end
-- ==== Proof.PlainProduct.lean ====
/-
  A plain matrix product — the left operand's axis 1 contracted with the right operand's axis 0, no batch axis — read
  at the entry (a, b): the sum over the dimension record's contraction index of the operands' entries is the textbook
  sum over k of  A(a, k) · B(k, b). The same statement serves a product on a block of rows and one on the whole array.
-/
import Idealize.ShloMosaic.PureOps.Ideal.Laws
import Idealize.ShloMosaic.Lib.ValueIdx

noncomputable section

namespace Cert.Layer

open Idealize.ShloMosaic Idealize.ShloMosaic.ValueIdx

/-- The dimension record of a plain m×k by k×n product, whatever the proof of its well-formedness. -/
abbrev plainDims {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem contr_sum_plain {m k n : Nat} (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (plainDims w).contr.Idx, A ((plainDims w).lhsIdx (ix2 a b) q) * B ((plainDims w).rhsIdx (ix2 a b) q)
      = ∑ c : Fin k, A (ix2 a c) * B (ix2 c b) := by
  rw [← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's plain product read at an entry, on the extended reals. -/
theorem dotGeneral_plain_entry {m k n : Nat} {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    Host.dotGeneral (plainDims w) none A B (ix2 a b) = ∑ c : Fin k, A (ix2 a c) * B (ix2 c b) := by
  show FloatOps.dotGeneral _ none _ A B (ix2 a b) = _
  rw [Ideal.dotGeneral_apply]
  exact contr_sum_plain w A B a b

/-- A kernel's plain product accumulated into the zero array, read at an entry, on the extended reals. -/
theorem matmul_zero_plain_entry {m k n : Nat} {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (plainDims w) none A B (constant (F := Ideal) ⟨2, ![m, n]⟩ .f32 0x00000000#32) (ix2 a b) = ∑ c : Fin k, A (ix2 a c) * B (ix2 c b) := by
  show FloatOps.matmul _ none A B (constant (F := Ideal) _ .f32 0x00000000#32) (ix2 a b) = _
  rw [Ideal.matmul_constant_zero_apply]
  exact contr_sum_plain w A B a b

end Cert.Layer

end
-- ==== Proof.Product.lean ====
/-
  The product  x·w  of the 16384 × 2048 activations with a 2048 × 2048 weight matrix, entry by entry, on the extended
  reals; the two weight matrices of the layer keep real entries when W has them; and, for real entries,
  x·(a + b) = x·a + x·b : the layer's one matrix product against the summed weights is the sum of its two products.
-/
import proofs.«106633_j85641647882597_2_alg».proof.Proof.Weights
import proofs.«106633_j85641647882597_2_alg».proof.Proof.RealEntries
import proofs.«106633_j85641647882597_2_alg».proof.Proof.PlainProduct

noncomputable section

namespace Cert.Layer

open Idealize.ShloMosaic Idealize.ShloMosaic.ValueIdx

/-- (x·w)(i, j) = Σ_k x(i, k) · w(k, j). -/
def matProd (x : SX.Idx → EReal) (w : SW.Idx → EReal) : SX.Idx → EReal :=
  fun j => ∑ k : Fin 2048, x (ix2 (j 0) k) * w (ix2 k (j 1))

theorem matProd_entry (x : SX.Idx → EReal) (w : SW.Idx → EReal) (a : Fin 16384) (b : Fin 2048) :
    matProd x w (ix2 a b) = ∑ k : Fin 2048, x (ix2 a k) * w (ix2 k b) := rfl

/-- The transpose's entries are entries of W. -/
theorem wT_real (W : FVec Ideal SW .f32) (h : AllReal W) : AllReal (wT W) :=
  AllReal.transpose _ _ _ h

/-- Each of the nine rearrangements has entries of W for entries, so their sum has real entries. -/
theorem wPerm_real (W : FVec Ideal SW .f32) (h : AllReal W) : AllReal (wPerm W) := by
  have hT : AllReal (transpose SW [1, 0] W swapAxes) := AllReal.transpose _ _ _ h
  have h1 : AllReal (transpose SW [1, 0] (Host.reverse [1] W) swapAxes) := AllReal.transpose _ _ _ (AllReal.reverse _ _ h)
  have h2 : AllReal (Host.reverse [1] (Host.reverse [0] W)) := AllReal.reverse _ _ (AllReal.reverse _ _ h)
  have h3 : AllReal (Host.reverse [1] (transpose SW [1, 0] W swapAxes)) := AllReal.reverse _ _ hT
  have h5 : AllReal (Host.reverse [0] W) := AllReal.reverse _ _ h
  have h6 : AllReal (Host.reverse [1] W) := AllReal.reverse _ _ h
  have h7 : AllReal (Host.reverse [0, 1] (transpose SW [1, 0] W swapAxes)) := AllReal.reverse _ _ hT
  have h8 : AllReal (shiftRows W) := AllReal.concat _ _ _ (by
    intro p hp
    simp only [List.mem_cons, List.not_mem_nil, or_false] at hp
    rcases hp with rfl | rfl
    · exact AllReal.slice (t := SRow) ![2047, 0] W lastRow h
    · exact AllReal.slice (t := SRows) ![0, 0] W firstRows h)
  have h9 : AllReal (shiftCols W) := AllReal.concat _ _ _ (by
    intro p hp
    simp only [List.mem_cons, List.not_mem_nil, or_false] at hp
    rcases hp with rfl | rfl
    · exact AllReal.slice (t := SCol) ![0, 2047] W lastCol h
    · exact AllReal.slice (t := SCols) ![0, 0] W firstCols h)
  exact AllReal.add _ _ (AllReal.add _ _ (AllReal.add _ _ (AllReal.add _ _ (AllReal.add _ _ (AllReal.add _ _
    (AllReal.add _ _ (AllReal.add _ _ h1 h2) h3) hT) h5) h6) h7) h8) h9

/-- For real entries the product distributes over the sum of two weight matrices. -/
theorem matProd_add (x : SX.Idx → EReal) (a b : FVec Ideal SW .f32) (hx : AllReal x) (ha : AllReal a) (hb : AllReal b) :
    matProd x (addf a b) = fun j => matProd x a j + matProd x b j := by
  funext j
  show ∑ k : Fin 2048, x (ix2 (j 0) k) * (a (ix2 k (j 1)) + b (ix2 k (j 1))) = _
  exact sum_mul_add _ _ _ (fun k => hx _) (fun k => ha _) (fun k => hb _)

/-- The layer's combined weights on the extended reals:  W^T + P(W). -/
abbrev totalWeights (W : FVec Ideal SW .f32) : SW.Idx → EReal := addf (wT W) (wPerm W)

/-- For real x and W:  x·(W^T + P(W)) = x·W^T + x·P(W). -/
theorem matProd_totalWeights (x : SX.Idx → EReal) (W : FVec Ideal SW .f32) (hx : AllReal x) (hW : AllReal W) :
    matProd x (totalWeights W) = fun j => matProd x (wT W) j + matProd x (wPerm W) j :=
  matProd_add x (wT W) (wPerm W) hx (wT_real W hW) (wPerm_real W hW)

/-- The host's whole product is  x·w. -/
theorem dotGeneral_eq_matProd (w : DotDims.WF SX SW SX [1] [0] [0] [1] [] []) (x : FVec Ideal SX .f32) (v : FVec Ideal SW .f32) :
    Host.dotGeneral (plainDims w) none x v = matProd x v := by
  funext j
  obtain ⟨a, b, rfl⟩ : ∃ (a : Fin 16384) (b : Fin 2048), j = ix2 a b := ⟨j 0, j 1, eq_ix2 j⟩
  exact dotGeneral_plain_entry w x v a b

end Cert.Layer

end
-- ==== Proof.KernelValue.lean ====
/-
  What the idealized kernel leaves in its result array. Before the launch the host has put  W^T + P(W)  in the second
  operand's array (the narrowing to a shorter float format is the identity on the extended reals). The grid has 32
  points; point t multiplies rows 512·t … 512·t + 511 of x by that whole matrix and writes the same rows of the result.
  The 32 row blocks cover the result, which therefore ends at  x·(W^T + P(W)).
-/
import proofs.«106633_j85641647882597_2_alg».proof.Proof.Gen.KernelIdeal.Value
import proofs.«106633_j85641647882597_2_alg».proof.Proof.Product
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.RowBlocks

open Cert.KernelIdeal Cert.KernelIdeal.Gen Cert.KernelIdeal.Value Cert.Layer Idealize.ShloMosaic.ValueIdx Idealize.ShloMosaic.StableHlo

variable (m : (ℓ : Loc nD τ sig) → Buf (Elt Ideal) ℓ) (ρ : Dev nD → PrngReg)

theorem zeroOffsets : (![0, 0] : Fin 2 → Nat) = fun _ => 0 := funext fun a => by fin_cases a <;> rfl

/-- The matrix the launch finds in its second operand:  W^T + P(W)  of the weights as launched. -/
theorem weights_eq (c : Dev nD) :
    (V m c main_call0_v20 : S2048x2048.Idx → EReal)
      = totalWeights (m ((c : Thread nD τ).loc main_arg1)) := by
  dsimp only [Gen.V, Gen.hostOps0]
  after_results_simp
  rfl

/-- The body's value at an entry of its block: row p of the loaded rows of x against column q of the loaded matrix. -/
theorem body_entry (x0 : Vec Ideal S512x2048 .f32) (x1 : Vec Ideal S2048x2048 .bf16) (y : S512x2048.Idx) :
    k0_pay1 x0 x1 y = ∑ k : Fin 2048, x0 (ix2 (y 0) k) * x1 (ix2 k (y 1)) := by
  obtain ⟨p, q, rfl⟩ : ∃ (p : Fin 512) (q : Fin 2048), y = ix2 p q := ⟨y 0, y 1, eq_ix2 y⟩
  unfold k0_pay1
  show matmul dot_S512x2048_S2048x2048_S512x2048_1_0_0_1_n_n none (truncf .bf16 x0 bitsLt_bf16_f32)
      (shapeCast S2048x2048 x1 shapeCasts_S2048x2048_S2048x2048) (constant (F := Ideal) S512x2048 .f32 0x00000000#32) (ix2 p q) = _
  refine (matmul_zero_plain_entry dot_S512x2048_S2048x2048_S512x2048_1_0_0_1_n_n_wf _ _ p q).trans ?_
  refine Finset.sum_congr rfl fun k _ => ?_
  exact congrArg (fun z => x0 (ix2 p k) * z) (congrFun (shapeCast_self x1 shapeCasts_S2048x2048_S2048x2048) (ix2 k q))

/-- The printed index maps over the grid: the x window and the result window are at row block t, the weight window
    is the whole matrix. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of  x·M, M the matrix the launch found. -/
theorem written_eq (c : Dev nD) (t : Fin cfg0.N) :
    (dats m 0 c).flushed 2 t = ((cfg0.win 2).blk t).view.read (Elt Ideal) (matProd (V m c main_arg0) (V m c main_call0_v20)) := by
  rw [flushed2]
  unfold out0_2
  rw [View.canon_unit_zero zeroOffsets]
  simp only [View.ld_unit_zero (S := S512x2048) zeroOffsets, View.ld_unit_zero (S := S2048x2048) zeroOffsets]
  obtain ⟨e00, e01, e10, e11, e20, e21⟩ := index_maps t
  funext y
  show k0_pay1 (iblk m c 0 t) (iblk m c 1 t) y
    = matProd (V m c main_arg0) (V m c main_call0_v20) (((cfg0.win 2).blk t).view.emb y)
  refine (body_entry (iblk m c 0 t) (iblk m c 1 t) y).trans ?_
  unfold matProd
  refine Finset.sum_congr rfl fun k _ => ?_
  have h0 : iblk m c 0 t (ix2 (y 0) k) = V m c main_arg0 (ix2 ((((cfg0.win 2).blk t).view.emb y) 0) k) := by
    show V m c main_arg0 (((cfg0.win 0).blk t).view.emb (ix2 (y 0) k)) = _
    refine congrArg (V m c main_arg0) (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 2048 + 1 * k.val = k.val; omega
  have h1 : iblk m c 1 t (ix2 k (y 1)) = V m c main_call0_v20 (ix2 k ((((cfg0.win 2).blk t).view.emb y) 1)) := by
    show V m c main_call0_v20 (((cfg0.win 1).blk t).view.emb (ix2 k (y 1))) = _
    refine congrArg (V m c main_call0_v20) (funext fun a => Fin.ext ?_)
    match a with
    | ⟨0, _⟩ => show win0_1.index t (0 : Fin 2) * 2048 + 1 * k.val = k.val; omega
    | ⟨1, _⟩ => show win0_1.index t (1 : Fin 2) * 2048 + 1 * (y 1).val = win0_2.index t (1 : Fin 2) * 2048 + 1 * (y 1).val; omega
  rw [h0, h1]

/-- An index of the result is in point t's block iff each coordinate is in the block's range on its axis. -/
theorem mem_block (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Row r of the result is written by point r / 512. -/
theorem covered (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, e20, e21⟩ := index_maps t
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run:  x·(W^T + P(W))  of the arguments as launched. -/
theorem result_eq (c : Dev nD) :
    (dats m 0 c).arrAt 2 cfg0.N
      = matProd (m ((c : Thread nD τ).loc main_arg0)) (totalWeights (m ((c : Thread nD τ).loc main_arg1))) := by
  rw [(dats m 0 c).arrAt_eq_of_cover 2 (matProd (V m c main_arg0) (V m c main_call0_v20)) (fun t _ => written_eq m c t) covered,
    V_main_arg0, weights_eq]

/-- Every weakly fair execution of the idealized kernel terminates with the result at  x·(W^T + P(W))  and the
    arguments unchanged. -/
theorem run : θ_run defs (onTc (τ := τ) (main (F := Ideal))) ⟨m, fun _ => 0, ρ⟩ fun r => ∀ c : Dev nD,
      r.2.mem ((c : Thread nD τ).loc main_v0)
        = matProd (m ((c : Thread nD τ).loc main_arg0)) (totalWeights (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.KernelIdeal.RowBlocks

end
-- ==== Proof.ReferenceRun.lean ====
/-
  The reference program run from any memory: its operations in order, the calls of its helper functions written out at
  the call sites. The result array ends at  x·W^T + x·P(W)  — two whole matrix products, then their sum — where W^T is
  the transpose of the weights and P(W) the sum of the nine rearrangements (Weights.lean); the argument arrays end
  unchanged.
-/
import proofs.«106633_j85641647882597_2_alg».proof.Proof.Gen.ReferenceIdeal
import proofs.«106633_j85641647882597_2_alg».proof.Proof.Weights
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 29 operations, in order: the transpose and the first product; the three rotations, each
    two re-indexings; the running sum of the nine rearrangements; the second product; the final sum. -/
abbrev ops : List (HloOp τ sig (Elt F)) :=
  [ unary main_arg1 main_v0 ((transpose S2048x2048 [1, 0] · transposes_S2048x2048_S2048x2048_1_0) : (⟨S2048x2048, .f32⟩ : BufTy).Contents (Elt F) → (⟨S2048x2048, .f32⟩ : BufTy).Contents (Elt F)),
    binary main_arg0 main_v0 main_v1 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    TRef.unary (.of main_arg1 : TRef sig ⟨S2048x2048, .f32⟩) main_call0.call0.v0 (Host.reverse [1]),
    TRef.unary main_call0.call0.v0 main_call0.v1 (transpose S2048x2048 [1, 0] · transposes_S2048x2048_S2048x2048_1_0),
    TRef.unary (.of main_arg1 : TRef sig ⟨S2048x2048, .f32⟩) main_call1.call0.v0 (Host.reverse [0]),
    TRef.unary main_call1.call0.v0 main_call1.call1.v0 (Host.reverse [1]),
    binary main_v2 main_v3 main_v4 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : TRef sig ⟨S2048x2048, .f32⟩) main_call2.v0 (transpose S2048x2048 [1, 0] · transposes_S2048x2048_S2048x2048_1_0),
    TRef.unary main_call2.v0 main_call2.call0.v0 (Host.reverse [1]),
    binary main_v4 main_v5 main_v6 (addf : (⟨S2048x2048, .f32⟩ : BufTy).Contents (Elt F) → (⟨S2048x2048, .f32⟩ : BufTy).Contents (Elt F) → (⟨S2048x2048, .f32⟩ : BufTy).Contents (Elt F)),
    unary main_arg1 main_v7 ((transpose S2048x2048 [1, 0] · transposes_S2048x2048_S2048x2048_1_0) : (⟨S2048x2048, .f32⟩ : BufTy).Contents (Elt F) → (⟨S2048x2048, .f32⟩ : BufTy).Contents (Elt F)),
    binary main_v6 main_v7 main_v8 (addf : (⟨S2048x2048, .f32⟩ : BufTy).Contents (Elt F) → (⟨S2048x2048, .f32⟩ : BufTy).Contents (Elt F) → (⟨S2048x2048, .f32⟩ : BufTy).Contents (Elt F)),
    unary main_arg1 main_v9 (Host.reverse [0] : (⟨S2048x2048, .f32⟩ : BufTy).Contents (Elt F) → (⟨S2048x2048, .f32⟩ : BufTy).Contents (Elt F)),
    binary main_v8 main_v9 main_v10 (addf : (⟨S2048x2048, .f32⟩ : BufTy).Contents (Elt F) → (⟨S2048x2048, .f32⟩ : BufTy).Contents (Elt F) → (⟨S2048x2048, .f32⟩ : BufTy).Contents (Elt F)),
    unary main_arg1 main_v11 (Host.reverse [1] : (⟨S2048x2048, .f32⟩ : BufTy).Contents (Elt F) → (⟨S2048x2048, .f32⟩ : BufTy).Contents (Elt F)),
    binary main_v10 main_v11 main_v12 (addf : (⟨S2048x2048, .f32⟩ : BufTy).Contents (Elt F) → (⟨S2048x2048, .f32⟩ : BufTy).Contents (Elt F) → (⟨S2048x2048, .f32⟩ : BufTy).Contents (Elt F)),
    unary main_arg1 main_v13 ((transpose S2048x2048 [1, 0] · transposes_S2048x2048_S2048x2048_1_0) : (⟨S2048x2048, .f32⟩ : BufTy).Contents (Elt F) → (⟨S2048x2048, .f32⟩ : BufTy).Contents (Elt F)),
    unary main_v13 main_v14 (Host.reverse [0, 1] : (⟨S2048x2048, .f32⟩ : BufTy).Contents (Elt F) → (⟨S2048x2048, .f32⟩ : BufTy).Contents (Elt F)),
    binary main_v12 main_v14 main_v15 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : TRef sig ⟨S2048x2048, .f32⟩) main_call3.v0 (extractStridedSlice S1x2048 ![2047, 0] · slices_S2048x2048_S1x2048_2047_0),
    TRef.unary (.of main_arg1 : TRef sig ⟨S2048x2048, .f32⟩) main_call3.v1 (extractStridedSlice S2047x2048 ![0, 0] · slices_S2048x2048_S2047x2048_0_0),
    TRef.binary main_call3.v0 main_call3.v1 main_call3.v2 (fun a b => concatenate S2048x2048 0 [⟨S1x2048, a⟩, ⟨S2047x2048, b⟩] concatenates_S1x2048_S2047x2048_S2048x2048_d0),
    binary main_v15 main_v16 main_v17 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : TRef sig ⟨S2048x2048, .f32⟩) main_call4.v0 (extractStridedSlice S2048x1 ![0, 2047] · slices_S2048x2048_S2048x1_0_2047),
    TRef.unary (.of main_arg1 : TRef sig ⟨S2048x2048, .f32⟩) main_call4.v1 (extractStridedSlice S2048x2047 ![0, 0] · slices_S2048x2048_S2048x2047_0_0),
    TRef.binary main_call4.v0 main_call4.v1 main_call4.v2 (fun a b => concatenate S2048x2048 1 [⟨S2048x1, a⟩, ⟨S2048x2047, b⟩] concatenates_S2048x1_S2048x2047_S2048x2048_d1),
    binary main_v17 main_v18 main_v19 (addf : (⟨S2048x2048, .f32⟩ : BufTy).Contents (Elt F) → (⟨S2048x2048, .f32⟩ : BufTy).Contents (Elt F) → (⟨S2048x2048, .f32⟩ : BufTy).Contents (Elt F)),
    binary main_arg0 main_v19 main_v20 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    binary main_v1 main_v20 main_v21 (addf : (⟨S16384x2048, .f32⟩ : BufTy).Contents (Elt F) → (⟨S16384x2048, .f32⟩ : BufTy).Contents (Elt F) → (⟨S16384x2048, .f32⟩ : BufTy).Contents (Elt F)) ]

set_option maxRecDepth 4096 in
/-- The program is that straight line: the helper functions opened at their calls. -/
theorem main_eq (c : Dev nD) : main (F := F) c = seq ops := by
  simp only [main, fn_rot90.body, fn_rot90_0.body, fn_rot90_3.body, fn_flip.body, fn_flip_1.body, fn_flip_2.body,
    fn_roll_static.body, fn_roll_static_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub ..⟩

/-- Every weakly fair execution of the reference terminates with each buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference terminates with its result at  x·W^T + x·P(W)  of the launch contents
    of the two arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = addf (Host.dotGeneral dot_S16384x2048_S2048x2048_S16384x2048_1_0_0_1_n_n none (m ((c.tc : Thread nD τ).loc main_arg0)) (Cert.Layer.wT (m ((c.tc : Thread nD τ).loc main_arg1))))
            (Host.dotGeneral dot_S16384x2048_S2048x2048_S16384x2048_1_0_0_1_n_n none (m ((c.tc : Thread nD τ).loc main_arg0)) (Cert.Layer.wPerm (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by after_results_simp; rfl),
      (h c main_arg0).trans (by after_results_simp),
      (h c main_arg1).trans (by after_results_simp)⟩)
    (run_fold m ρ)

end Cert.ReferenceIdeal.RefRun

end
-- ==== Proof.FiniteInputs.lean ====
/-
  The precondition read back. It says that  |v| < +∞  holds at every entry of both arguments (each "all" is a reduction
  by "and" of the entrywise comparisons, and the two are joined by "and"). On the extended reals  |v| = max v (−v),
  and  max v (−v) < +∞  excludes both infinities: every entry is a real number.
-/
import proofs.«106633_j85641647882597_2_alg».proof.Proof.Gen.Pre_finite_inputs
import proofs.«106633_j85641647882597_2_alg».proof.Proof.RealEntries
import Idealize.ShloMosaic.Lib.ReduceAll
import Idealize.ShloMosaic.PureOps.Ideal.Laws

noncomputable section

namespace Cert.Layer

open Idealize.ShloMosaic Cert.Pre_finite_inputs Cert.Pre_finite_inputs.Gen

instance scalarIdx_subsingleton : Subsingleton S_.Idx := ⟨fun a b => funext fun d => d.elim0⟩

/-- The pattern of +∞ denotes +∞. -/
theorem inf_pattern : Ideal.ofBits .f32 0x7F800000#32 = (⊤ : EReal) := by simp [Ideal.ofBits, Ideal.ieee]

/-- max v (−v) < +∞  only at a real v. -/
theorem real_of_abs_lt_top (v : EReal) (h : Ideal.cmp .olt (max v (-v)) (Ideal.ofBits .f32 0x7F800000#32) = 1#1) :
    ∃ r : ℝ, v = (r : EReal) := by
  rw [inf_pattern] at h
  induction v using EReal.rec with
  | bot => simp [Ideal.cmp] at h
  | coe r => exact ⟨r, rfl⟩
  | top => simp [Ideal.cmp] at h

/-- Under the precondition both arguments have real entries. -/
theorem real_of_pre (x : FVec Ideal S16384x2048 .f32) (W : FVec Ideal S2048x2048 .f32)
    (h : Cert.Pre_finite_inputs.fn (F := Ideal) x W = fun _ => 1#1) : AllReal x ∧ AllReal W := by
  have h0 := congrFun h ValueIdx.ix0
  dsimp only [fn] at h0
  obtain ⟨hx, hw⟩ := IntOp.andi_eq_one.1 h0
  refine ⟨fun i => ?_, fun i => ?_⟩
  · exact real_of_abs_lt_top (x i) (Host.reduce_andi_all _ _ _ _ _ hx i)
  · exact real_of_abs_lt_top (W i) (Host.reduce_andi_all _ _ _ _ _ hw i)

end Cert.Layer

end
-- ==== Proof.lean ====
/-
  A linear layer with transposed and rearranged weights. With x the 16384 × 2048 activations and W the 2048 × 2048
  parameter, let W^T be the transpose and P(W) the sum of nine rearrangements of W (three rotations, the transpose, two
  flips, the doubly flipped transpose, two cyclic shifts). The reference computes  x·W^T + x·P(W)  — two matrix products
  and a sum. The kernel first forms  W^T + P(W)  on the host and then computes the single product  x·(W^T + P(W)),
  32 blocks of 512 rows at a time.

  On the extended reals the two agree whenever every entry of x and of W is a real number, which is what the
  precondition says: entry (i, j) of the kernel's result is  Σ_k x(i,k)·(W^T(k,j) + P(W)(k,j)), each factor is real (an
  entry of P(W) is a sum of nine entries of W), so the product distributes term by term and the sum splits into
  Σ_k x(i,k)·W^T(k,j) + Σ_k x(i,k)·P(W)(k,j), the reference's entry. (Without finiteness the law fails: +∞ and −∞ among
  the weights make the two sides differ.) Changes of float format are the identity on the extended reals, so the
  narrowings inside the kernel do not appear. The idealization rewrote nothing, so the preservation claim is empty.
-/
import proofs.«106633_j85641647882597_2_alg».proof.Defs
import proofs.«106633_j85641647882597_2_alg».proof.Proof.Gen.Kernel
import proofs.«106633_j85641647882597_2_alg».proof.Proof.Gen.Kernel.Skeleton
import proofs.«106633_j85641647882597_2_alg».proof.Proof.Gen.Kernel.Launch
import proofs.«106633_j85641647882597_2_alg».proof.Proof.Gen.Kernel.Points
import proofs.«106633_j85641647882597_2_alg».proof.Proof.Gen.Kernel.Frame
import proofs.«106633_j85641647882597_2_alg».proof.Proof.Gen.KernelIdeal
import proofs.«106633_j85641647882597_2_alg».proof.Proof.Gen.KernelIdeal.Skeleton
import proofs.«106633_j85641647882597_2_alg».proof.Proof.Gen.KernelIdeal.Launch
import proofs.«106633_j85641647882597_2_alg».proof.Proof.Gen.KernelIdeal.Points
import proofs.«106633_j85641647882597_2_alg».proof.Proof.Gen.KernelIdeal.Frame
import proofs.«106633_j85641647882597_2_alg».proof.Proof.Gen.KernelIdeal.Value
import proofs.«106633_j85641647882597_2_alg».proof.Proof.Gen.ReferenceIdeal
import proofs.«106633_j85641647882597_2_alg».proof.Proof.Gen.Pre_finite_inputs
import proofs.«106633_j85641647882597_2_alg».proof.Proof.KernelValue
import proofs.«106633_j85641647882597_2_alg».proof.Proof.ReferenceRun
import proofs.«106633_j85641647882597_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The reference's dimension record is that of a plain product. -/
theorem reference_dims : Cert.ReferenceIdeal.dot_S16384x2048_S2048x2048_S16384x2048_1_0_0_1_n_n = Cert.Layer.plainDims Cert.ReferenceIdeal.Gen.dot_S16384x2048_S2048x2048_S16384x2048_1_0_0_1_n_n_wf := rfl

/-- Both programs end at one array: the kernel at  x·(W^T + P(W)), the reference at  x·W^T + x·P(W), equal entry by
    entry because the arguments' entries are real. -/
theorem algebraic : Cert.algebraic_KernelIdeal_ReferenceIdeal := by
  intro m ρ m' ρ' hpre hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hx, hW⟩ := Cert.Layer.real_of_pre _ _ (hpre c)
  rw [Cert.Layer.matProd_totalWeights _ _ hx hW, reference_dims, Cert.Layer.dotGeneral_eq_matProd, Cert.Layer.dotGeneral_eq_matProd]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
